-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 144
  | .vmem => 20
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S50000x128, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S_, .f32⟩
  | 89 => ⟨S800000, .f32⟩
  | 90 => ⟨S50000, .f32⟩
  | 91 => ⟨S_, .f32⟩
  | 92 => ⟨S50000, .f32⟩
  | 93 => ⟨S50000, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S800000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S800000x1, .f32⟩
  | 124 => ⟨S800000x128, .f32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S50000x128, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_c_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_c_18 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_19 : Ref sig .tc := ⟨.hbm, 104, rfl⟩
abbrev main_v77 : Ref sig .tc := ⟨.hbm, 105, rfl⟩
abbrev main_v78 : Ref sig .tc := ⟨.hbm, 106, rfl⟩
abbrev main_c_20 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_21 : Ref sig .tc := ⟨.hbm, 114, rfl⟩
abbrev main_v85 : Ref sig .tc := ⟨.hbm, 115, rfl⟩
abbrev main_v86 : Ref sig .tc := ⟨.hbm, 116, rfl⟩
abbrev main_c_22 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_23 : Ref sig .tc := ⟨.hbm, 126, rfl⟩
abbrev main_v95 : Ref sig .tc := ⟨.hbm, 127, rfl⟩
abbrev main_c_24 : Ref sig .tc := ⟨.hbm, 128, rfl⟩
abbrev main_v96 : Ref sig .tc := ⟨.hbm, 129, rfl⟩
abbrev main_v97 : Ref sig .tc := ⟨.hbm, 130, rfl⟩
abbrev main_c_25 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v107) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v108) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v109) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S50000x128, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S_, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S_, .f32⟩
  | 93 => ⟨S800000, .f32⟩
  | 94 => ⟨S50000, .f32⟩
  | 95 => ⟨S_, .f32⟩
  | 96 => ⟨S50000, .f32⟩
  | 97 => ⟨S50000, .f32⟩
  | 98 => ⟨S50000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000, .f32⟩
  | 117 => ⟨S800000, .f32⟩
  | 118 => ⟨S_, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S800000x1, .f32⟩
  | 2 => ⟨S800000x128, .f32⟩
  | 3 => ⟨S800000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S50000x128, .f32⟩
  | 13 => ⟨S50000, .f32⟩
  | 14 => ⟨S50000x1, .f32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call0_cst : Ref sig .tc := ⟨.hbm, 78, rfl⟩
abbrev main_call0_v0 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_19 : Ref sig .tc := ⟨.hbm, 108, rfl⟩
abbrev main_v79 : Ref sig .tc := ⟨.hbm, 109, rfl⟩
abbrev main_v80 : Ref sig .tc := ⟨.hbm, 110, rfl⟩
abbrev main_c_20 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_21 : Ref sig .tc := ⟨.hbm, 118, rfl⟩
abbrev main_v87 : Ref sig .tc := ⟨.hbm, 119, rfl⟩
abbrev main_c_22 : Ref sig .tc := ⟨.hbm, 120, rfl⟩
abbrev main_v88 : Ref sig .tc := ⟨.hbm, 121, rfl⟩
abbrev main_v89 : Ref sig .tc := ⟨.hbm, 122, rfl⟩
abbrev main_c_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_24 : Ref sig .tc := ⟨.hbm, 132, rfl⟩
abbrev main_v98 : Ref sig .tc := ⟨.hbm, 133, rfl⟩
abbrev main_v99 : Ref sig .tc := ⟨.hbm, 134, rfl⟩
abbrev main_c_25 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The kernel's run with its result array named.

  The program is seven segments: three stretches of host operations and four pipelined regions. Along the run every
  buffer that outlives a region is tracked: at each boundary between segments it holds the fold, from the launch
  memory, of what the segments so far wrote (`W0` at launch … `W7` at the return). So every weakly fair execution
  terminates, nothing faults, the six argument arrays end as launched, and the result array ends at the last
  boundary's contents `W7` of its buffer — which the next module computes.
-/
import proofs.«154042_j22935125361178_1_alg».proof.Proof.Gen.KernelIdeal.Frame

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel's program terminates without a fault; the result array ends at the
    last boundary's contents of its buffer and the argument arrays as launched. The last thread state holds every
    long-lived buffer at `W7`; it is read against the final memory, the result's buffer like the arguments'. -/
theorem run_named : θ_run defs (onTc (τ := τ) (main (F := F))) ⟨m, fun _ => 0, ρ⟩ (fun r => ∀ c : Dev nD,
      r.2.mem ((c.tc : Thread nD τ).loc main_v109) = W7 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v109 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
end Cert.KernelIdeal.KernelRun

end
-- ==== Proof.Spec.lean ====
/-
  The mathematics of the two-layer graph convolution, stated once, index by index, over the extended reals.

  A layer sends node features `x` (50000 nodes, 128 features) to
      `addBias (agg (linear x W) src dst) b`,
  the first layer followed by a rectifier:
  * `linear x W` is the dense transform: entry (r, c) is the sum over k of x(r, k) · W(k, c);
  * `agg h src dst` is the symmetric-normalised neighbourhood sum with self loops: the degree of a node is one
    plus the number of edges that end in it, `dinv` its inverse square root; every edge (s, d) adds
    h(s, ·) · dinv(s) · dinv(d) to row d, and every node adds h(n, ·) · dinv(n)² to its own row. It is kept as ONE
    function of `h` and the two edge-end vectors: both programs apply the same operations, so nothing about
    gathers or scatters is ever needed beyond congruence;
  * `addBias pre b` adds b(c) to every entry of column c, `addBiasRelu` then takes the maximum with zero.
-/
import proofs.«154042_j22935125361178_1_alg».proof.KernelIdeal
import Idealize.ShloMosaic.Lib.ValueIdx
import Idealize.ShloMosaic.PureOps.Ideal

noncomputable section

namespace Cert.GCN

open Idealize.ShloMosaic Idealize.ShloMosaic.ValueIdx Cert.KernelIdeal
open Cert.KernelIdeal.Facts₀ Cert.KernelIdeal.Facts

/-! ## The dense transform and the bias stages, index by index -/

/-- Row `r`, column `c` of `x · W`: the sum over the 128 shared coordinates. -/
def linear (x : FVec Ideal S50000x128 .f32) (W : FVec Ideal S128x128 .f32) : FVec Ideal S50000x128 .f32 :=
  fun i => ∑ k : Fin 128, x (ix2 (⟨(i 0).val, idx2_lt0 i⟩ : Fin 50000) k) * W (ix2 k (⟨(i 1).val, idx2_lt1 i⟩ : Fin 128))

theorem linear_apply (x : FVec Ideal S50000x128 .f32) (W : FVec Ideal S128x128 .f32) (r : Fin 50000) (c : Fin 128) :
    linear x W (ix2 r c) = ∑ k : Fin 128, x (ix2 r k) * W (ix2 k c) := rfl

/-- Every entry of column `c` gets `b c` added. -/
def addBias (pre : FVec Ideal S50000x128 .f32) (b : FVec Ideal S128 .f32) : FVec Ideal S50000x128 .f32 :=
  fun i => pre i + b (ix1 (⟨(i 1).val, idx2_lt1 i⟩ : Fin 128))

theorem addBias_apply (pre : FVec Ideal S50000x128 .f32) (b : FVec Ideal S128 .f32) (r : Fin 50000) (c : Fin 128) :
    addBias pre b (ix2 r c) = pre (ix2 r c) + b (ix1 c) := rfl

/-- The same, followed by the rectifier: the maximum with the float zero (kept as its word; it is the same word on
    both sides and is never evaluated). -/
def addBiasRelu (pre : FVec Ideal S50000x128 .f32) (b : FVec Ideal S128 .f32) : FVec Ideal S50000x128 .f32 :=
  fun i => max (pre i + b (ix1 (⟨(i 1).val, idx2_lt1 i⟩ : Fin 128))) (Ideal.ofBits .f32 0x00000000#32)

theorem addBiasRelu_apply (pre : FVec Ideal S50000x128 .f32) (b : FVec Ideal S128 .f32) (r : Fin 50000) (c : Fin 128) :
    addBiasRelu pre b (ix2 r c) = max (pre (ix2 r c) + b (ix1 c)) (Ideal.ofBits .f32 0x00000000#32) := rfl

/-! ## The edge list's two rows, and the aggregation as one function -/

section Agg
variable {F : FTy → Type} [FloatOps F] [Cert.KernelIdeal.Facts]

/-- Row `0` of the edge list (the sources), as a vector of 800000 node numbers. -/
def edgeSrc (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row `1` of the edge list (the destinations). -/
def edgeDst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A vector of node numbers as the index column a gather or scatter takes: a negative number counts from the end
    (50000 is added to it). -/
def nodeCol (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The inverse square root of each node's degree: one (the self loop) plus the number of edges ending in it. -/
def dinv (dst : (⟨S800000, .i32⟩ : BufTy).Contents (Elt F)) : (⟨S50000, .f32⟩ : BufTy).Contents (Elt F) :=
  Host.rsqrt (addf
    (Host.scatterAdd scatter_S50000_S800000x1_S800000_n_0_0_1
      (broadcastInDim S50000 ![] bcast_S_S50000 (constant S_ .f32 0x00000000#32)) (nodeCol dst)
      (broadcastInDim S800000 ![] bcast_S_S800000 (constant S_ .f32 0x3F800000#32)))
    (broadcastInDim S50000 ![] bcast_S_S50000 (constant S_ .f32 0x3F800000#32)))

/-- The normalised neighbourhood sum with self loops, as one function of the transformed features and the edge ends. -/
def agg (h : (⟨S50000x128, .f32⟩ : BufTy).Contents (Elt F)) (src dst : (⟨S800000, .i32⟩ : BufTy).Contents (Elt F)) :
    (⟨S50000x128, .f32⟩ : BufTy).Contents (Elt F) :=
  addf
    (Host.scatterAdd scatter_S50000x128_S800000x1_S800000x128_1_0_0_1
      (broadcastInDim S50000x128 ![] bcast_S_S50000x128 (constant S_ .f32 0x00000000#32)) (nodeCol dst)
      (mulf (Host.gather gather_S50000x128_S800000x1_S800000x128_1_0_n_n_0_1_1128 h (nodeCol src))
        (broadcastInDim S800000x128 ![0, 1] bcast_S800000x1_S800000x128_0_1
          (broadcastInDim S800000x1 ![0] bcast_S800000_S800000x1_0
            (mulf (Host.gather gather_S50000_S800000x1_S800000_n_0_n_n_0_1_1 (dinv dst) (nodeCol src))
              (Host.gather gather_S50000_S800000x1_S800000_n_0_n_n_0_1_1 (dinv dst) (nodeCol dst)))))))
    (mulf h
      (broadcastInDim S50000x128 ![0, 1] bcast_S50000x1_S50000x128_0_1
        (broadcastInDim S50000x1 ![0] bcast_S50000_S50000x1_0 (mulf (dinv dst) (dinv dst)))))

end Agg

/-! ## The whole network -/

/-- Two layers: transform, aggregate, add the bias; a rectifier after the first. -/
def net [Cert.KernelIdeal.Facts] (x : FVec Ideal S50000x128 .f32) (e : (⟨S2x800000, .i32⟩ : BufTy).Contents (Elt Ideal))
    (W1 : FVec Ideal S128x128 .f32) (b1 : FVec Ideal S128 .f32) (W2 : FVec Ideal S128x128 .f32) (b2 : FVec Ideal S128 .f32) :
    FVec Ideal S50000x128 .f32 :=
  addBias (agg (F := Ideal) (linear (addBiasRelu (agg (F := Ideal) (linear x W1) (edgeSrc e) (edgeDst e)) b1) W2) (edgeSrc e) (edgeDst e)) b2

end Cert.GCN

end
-- ==== Proof.Linear0.lean ====
/-
  Region 0 of the kernel, the dense transform: whatever the buffers hold when the region is entered (`V`), its output
  array ends holding `linear` of its two input arrays — entry (r, c) the sum over k of X(r, k) · W(k, c).

  The grid has ten points; point t stages rows 5000·t … 5000·t + 4999 of the feature array and the whole weight
  matrix, and writes rows 5000·t … of the output. The body rounds both blocks to a shorter float format (the
  identity on the extended reals) and multiplies them into a zero accumulator, so entry (p, q) of the block it
  stores is the sum over k of Xblock(p, k) · W(k, q). Row p of block t is row 5000·t + p of the array, which is
  the claimed entry of `linear`. The ten blocks tile the 50000 rows, so the array is `linear` everywhere.
-/
import proofs.«154042_j22935125361178_1_alg».proof.Proof.Gen.KernelIdeal.Frame
import proofs.«154042_j22935125361178_1_alg».proof.Proof.Spec
import Idealize.ShloMosaic.Lib.Pipeline.Value
import Idealize.ShloMosaic.Lib.ValueIdx
import Idealize.ShloMosaic.PureOps.Ideal.Laws

noncomputable section

namespace Cert.KernelIdeal.Linear0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's product at an entry -/

theorem hz : (![0, 0] : Fin 2 → Nat) = fun _ => 0 := funext fun a => by fin_cases a <;> rfl

/-- The product's operand coordinates at output index `j` and shared index `s`: the left operand is read at
    (row of j, s), the right at (s, column of j). -/
theorem lhs_row (j : S5000x128.Idx) (s : dot_S5000x128_S128x128_S5000x128_1_0_0_1_n_n.contr.Idx) : (dot_S5000x128_S128x128_S5000x128_1_0_0_1_n_n.lhsIdx j s 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (j : S5000x128.Idx) (s : dot_S5000x128_S128x128_S5000x128_1_0_0_1_n_n.contr.Idx) : (dot_S5000x128_S128x128_S5000x128_1_0_0_1_n_n.lhsIdx j s 1).val = (s ⟨0, by decide⟩).val :=
  dot_S5000x128_S128x128_S5000x128_1_0_0_1_n_n.lhsIdx_val_of_single rfl j s
theorem rhs_row (j : S5000x128.Idx) (s : dot_S5000x128_S128x128_S5000x128_1_0_0_1_n_n.contr.Idx) : (dot_S5000x128_S128x128_S5000x128_1_0_0_1_n_n.rhsIdx j s 0).val = (s ⟨0, by decide⟩).val :=
  dot_S5000x128_S128x128_S5000x128_1_0_0_1_n_n.rhsIdx_val_of_single rfl j s
theorem rhs_col (j : S5000x128.Idx) (s : dot_S5000x128_S128x128_S5000x128_1_0_0_1_n_n.contr.Idx) : (dot_S5000x128_S128x128_S5000x128_1_0_0_1_n_n.rhsIdx j s 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of what the body stores: the sum over k of Xblock(p, k) · Wblock(k, q). The two roundings are the
    identity on the extended reals, and the accumulator is the float zero. -/
theorem pay_apply (xb : Vec Ideal S5000x128 .f32) (wb : Vec Ideal S128x128 .f32) (p : Fin 5000) (q : Fin 128) :
    k0_pay1 xb wb (ix2 p q) = ∑ k : Fin 128, xb (ix2 p k) * wb (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## From blocks to the array -/

/-- The index maps over the ten grid points: the feature window moves with the output window down the rows, point t
    at block row t; the weight window stays at the one whole block. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block row 0 … 9 is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of `linear` of the two input arrays as the region finds them. -/
theorem flushed_eq (c : Dev nD) (t : Fin cfg0.N) :
    (dat0 V c).flushed 2 t
      = ((cfg0.win 2).blk t).view.read (Elt Ideal) (Cert.GCN.linear (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.GCN.linear (V c main_arg0) (V c main_arg2) (((cfg0.win 2).blk t).view.emb (ix2 p q))
  refine (pay_apply _ _ p q).trans ?_
  refine Finset.sum_congr rfl fun k _ => ?_
  have hx : iblk0 V c 0 t (ix2 p k) = V c main_arg0 (ix2 (⟨((((cfg0.win 2).blk t).view.emb (ix2 p q)) 0).val, idx2_lt0 _⟩ : Fin 50000) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : iblk0 V c 1 t (ix2 k q) = V c main_arg2 (ix2 k (⟨((((cfg0.win 2).blk t).view.emb (ix2 p q)) 1).val, idx2_lt1 _⟩ : Fin 128)) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The ten blocks tile the array: row r is in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: `linear` of the two input arrays as the region finds them. -/
theorem final (c : Dev nD) :
    (dat0 V c).arrAt 2 cfg0.N = Cert.GCN.linear (V c main_arg0) (V c main_arg2) :=
  (dat0 V c).arrAt_eq_of_cover 2 _ (fun t _ => flushed_eq V c t) cover

end Cert.KernelIdeal.Linear0

end
-- ==== Proof.Combine1.lean ====
/-
  Region 1 of the kernel, the bias stage with the rectifier: whatever the buffers hold when the region is entered (`V`),
  if its second input array is the bias vector `b` laid out as one row of 128, its output array ends holding
  `addBiasRelu` of its first input array and `b` — entry (r, c) is pre(r, c) + b(c), or zero if that is negative.

  The grid has ten points; point t stages rows 5000·t … 5000·t + 4999 of the first array and the one bias row, and
  writes the same rows of the output. The body repeats the row down the block, adds, and takes the maximum with the float zero;
  nothing mixes entries, so block t of the output is block t of `addBiasRelu`, and the ten blocks tile the 50000 rows.
-/
import proofs.«154042_j22935125361178_1_alg».proof.Proof.Gen.KernelIdeal.Frame
import proofs.«154042_j22935125361178_1_alg».proof.Proof.Spec
import Idealize.ShloMosaic.Lib.Pipeline.Value
import Idealize.ShloMosaic.Lib.ValueIdx
import Idealize.ShloMosaic.Lib.ValueLayout

noncomputable section

namespace Cert.KernelIdeal.Combine1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's value at an entry -/

theorem hz : (![0, 0] : Fin 2 → Nat) = fun _ => 0 := funext fun a => by fin_cases a <;> rfl

/-- Entry (p, q) of what the body stores: the block's entry plus the row's entry of the same column, cut off below at zero.
    The casts to the same shape are the identity; the row is repeated down the block. -/
theorem pay_apply (xb : Vec Ideal S5000x128 .f32) (rb : Vec Ideal S1x128 .f32) (p : Fin 5000) (q : Fin 128) :
    k1_pay1 xb rb (ix2 p q) = max (xb (ix2 p q) + rb (ix2 (0 : Fin 1) q)) (Ideal.ofBits .f32 0x00000000#32) := by
  unfold k1_pay1
  simp only [shapeCast_self]
  show max (xb (ix2 p q) + broadcastTo S5000x128 rb broadcasts_S1x128_S5000x128 (ix2 p q)) _ = _
  rw [broadcastTo_1b_ab_apply]
  rfl

/-! ## From blocks to the array -/

/-- The index maps over the ten grid points: the first input's window moves with the output window down the rows,
    point t at block row t; the row's window stays at its one block. -/
theorem idx_facts : ∀ t : Fin cfg1.N, win1_0.index t (0 : Fin 2) = win1_2.index t (0 : Fin 2)
    ∧ win1_0.index t (1 : Fin 2) = win1_2.index t (1 : Fin 2) ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block row 0 … 9 is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of `addBiasRelu` of the first input array and the bias. -/
theorem flushed_eq (c : Dev nD) (b : FVec Ideal S128 .f32)
    (hb : V c main_v55 = shapeCast S1x128 b shapeCasts_S128_S1x128) (t : Fin cfg1.N) :
    (dat1 V c).flushed 2 t
      = ((cfg1.win 2).blk t).view.read (Elt Ideal) (Cert.GCN.addBiasRelu (V c main_v54) b) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Cert.GCN.addBiasRelu (V c main_v54) b (((cfg1.win 2).blk t).view.emb (ix2 p q))
  refine (pay_apply _ _ p q).trans ?_
  have hx : iblk1 V c 0 t (ix2 p q) = V c main_v54 (((cfg1.win 2).blk t).view.emb (ix2 p q)) := by
    show V c main_v54 (((cfg1.win 0).blk t).view.emb (ix2 p q)) = _
    refine congrArg (V c main_v54) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hr : iblk1 V c 1 t (ix2 (0 : Fin 1) q)
      = b (ix1 (⟨((((cfg1.win 2).blk t).view.emb (ix2 p q)) 1).val, idx2_lt1 _⟩ : Fin 128)) := by
    show V c main_v55 (((cfg1.win 1).blk t).view.emb (ix2 (0 : Fin 1) q)) = _
    rw [hb]
    have hidx : ((cfg1.win 1).blk t).view.emb (ix2 (0 : Fin 1) q)
        = ix2 (0 : Fin 1) (⟨((((cfg1.win 2).blk t).view.emb (ix2 p q)) 1).val, idx2_lt1 _⟩ : Fin 128) := by
      refine funext fun a => Fin.ext ?_
      match a with
      | ⟨0, _⟩ => show win1_1.index t (0 : Fin 2) * 1 + 1 * 0 = 0; omega
      | ⟨1, _⟩ => show win1_1.index t (1 : Fin 2) * 128 + 1 * q.val = win1_2.index t (1 : Fin 2) * 128 + 1 * q.val; omega
    rw [hidx]
    exact shapeCast_a_1a_apply b shapeCasts_S128_S1x128 0 _
  rw [hx, hr]
  rfl

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v56).slice (win1_2.rect t)).set ↔ _
  rw [View.set_slice_whole, Rect.mem_set_unit]
  exact Iff.rfl

/-- The ten blocks tile the array: row r is in the block of point r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: `addBiasRelu` of the first input array as the region finds it and the bias. -/
theorem final (c : Dev nD) (b : FVec Ideal S128 .f32)
    (hb : V c main_v55 = shapeCast S1x128 b shapeCasts_S128_S1x128) :
    (dat1 V c).arrAt 2 cfg1.N = Cert.GCN.addBiasRelu (V c main_v54) b :=
  (dat1 V c).arrAt_eq_of_cover 2 _ (fun t _ => flushed_eq V c b hb t) cover

end Cert.KernelIdeal.Combine1

end
-- ==== Proof.Linear2.lean ====
/-
  Region 2 of the kernel, the dense transform: whatever the buffers hold when the region is entered (`V`), its output
  array ends holding `linear` of its two input arrays — entry (r, c) the sum over k of X(r, k) · W(k, c).

  The grid has ten points; point t stages rows 5000·t … 5000·t + 4999 of the feature array and the whole weight
  matrix, and writes rows 5000·t … of the output. The body rounds both blocks to a shorter float format (the
  identity on the extended reals) and multiplies them into a zero accumulator, so entry (p, q) of the block it
  stores is the sum over k of Xblock(p, k) · W(k, q). Row p of block t is row 5000·t + p of the array, which is
  the claimed entry of `linear`. The ten blocks tile the 50000 rows, so the array is `linear` everywhere.
-/
import proofs.«154042_j22935125361178_1_alg».proof.Proof.Gen.KernelIdeal.Frame
import proofs.«154042_j22935125361178_1_alg».proof.Proof.Spec
import Idealize.ShloMosaic.Lib.Pipeline.Value
import Idealize.ShloMosaic.Lib.ValueIdx
import Idealize.ShloMosaic.PureOps.Ideal.Laws

noncomputable section

namespace Cert.KernelIdeal.Linear2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's product at an entry -/

theorem hz : (![0, 0] : Fin 2 → Nat) = fun _ => 0 := funext fun a => by fin_cases a <;> rfl

/-- The product's operand coordinates at output index `j` and shared index `s`: the left operand is read at
    (row of j, s), the right at (s, column of j). -/
theorem lhs_row (j : S5000x128.Idx) (s : dot_S5000x128_S128x128_S5000x128_1_0_0_1_n_n.contr.Idx) : (dot_S5000x128_S128x128_S5000x128_1_0_0_1_n_n.lhsIdx j s 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (j : S5000x128.Idx) (s : dot_S5000x128_S128x128_S5000x128_1_0_0_1_n_n.contr.Idx) : (dot_S5000x128_S128x128_S5000x128_1_0_0_1_n_n.lhsIdx j s 1).val = (s ⟨0, by decide⟩).val :=
  dot_S5000x128_S128x128_S5000x128_1_0_0_1_n_n.lhsIdx_val_of_single rfl j s
theorem rhs_row (j : S5000x128.Idx) (s : dot_S5000x128_S128x128_S5000x128_1_0_0_1_n_n.contr.Idx) : (dot_S5000x128_S128x128_S5000x128_1_0_0_1_n_n.rhsIdx j s 0).val = (s ⟨0, by decide⟩).val :=
  dot_S5000x128_S128x128_S5000x128_1_0_0_1_n_n.rhsIdx_val_of_single rfl j s
theorem rhs_col (j : S5000x128.Idx) (s : dot_S5000x128_S128x128_S5000x128_1_0_0_1_n_n.contr.Idx) : (dot_S5000x128_S128x128_S5000x128_1_0_0_1_n_n.rhsIdx j s 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of what the body stores: the sum over k of Xblock(p, k) · Wblock(k, q). A cast to the same shape and the two
    roundings are the identity on the extended reals, and the accumulator is the float zero. -/
theorem pay_apply (xb : Vec Ideal S5000x128 .f32) (wb : Vec Ideal S128x128 .f32) (p : Fin 5000) (q : Fin 128) :
    k2_pay1 xb wb (ix2 p q) = ∑ k : Fin 128, xb (ix2 p k) * wb (ix2 k q) := by
  unfold k2_pay1
  rw [shapeCast_self]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## From blocks to the array -/

/-- The index maps over the ten grid points: the feature window moves with the output window down the rows, point t
    at block row t; the weight window stays at the one whole block. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block row 0 … 9 is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of `linear` of the two input arrays as the region finds them. -/
theorem flushed_eq (c : Dev nD) (t : Fin cfg2.N) :
    (dat2 V c).flushed 2 t
      = ((cfg2.win 2).blk t).view.read (Elt Ideal) (Cert.GCN.linear (V c main_v56) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = Cert.GCN.linear (V c main_v56) (V c main_arg4) (((cfg2.win 2).blk t).view.emb (ix2 p q))
  refine (pay_apply _ _ p q).trans ?_
  refine Finset.sum_congr rfl fun k _ => ?_
  have hx : iblk2 V c 0 t (ix2 p k) = V c main_v56 (ix2 (⟨((((cfg2.win 2).blk t).view.emb (ix2 p q)) 0).val, idx2_lt0 _⟩ : Fin 50000) k) := by
    show V c main_v56 (((cfg2.win 0).blk t).view.emb (ix2 p k)) = _
    refine congrArg (V c main_v56) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : iblk2 V c 1 t (ix2 k q) = V c main_arg4 (ix2 k (⟨((((cfg2.win 2).blk t).view.emb (ix2 p q)) 1).val, idx2_lt1 _⟩ : Fin 128)) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hx, hw]

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v57).slice (win2_2.rect t)).set ↔ _
  rw [View.set_slice_whole, Rect.mem_set_unit]
  exact Iff.rfl

/-- The ten blocks tile the array: row r is in the block of point r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: `linear` of the two input arrays as the region finds them. -/
theorem final (c : Dev nD) :
    (dat2 V c).arrAt 2 cfg2.N = Cert.GCN.linear (V c main_v56) (V c main_arg4) :=
  (dat2 V c).arrAt_eq_of_cover 2 _ (fun t _ => flushed_eq V c t) cover

end Cert.KernelIdeal.Linear2

end
-- ==== Proof.Combine3.lean ====
/-
  Region 3 of the kernel, the bias stage: whatever the buffers hold when the region is entered (`V`),
  if its second input array is the bias vector `b` laid out as one row of 128, its output array ends holding
  `addBias` of its first input array and `b` — entry (r, c) is pre(r, c) + b(c).

  The grid has ten points; point t stages rows 5000·t … 5000·t + 4999 of the first array and the one bias row, and
  writes the same rows of the output. The body repeats the row down the block, adds;
  nothing mixes entries, so block t of the output is block t of `addBias`, and the ten blocks tile the 50000 rows.
-/
import proofs.«154042_j22935125361178_1_alg».proof.Proof.Gen.KernelIdeal.Frame
import proofs.«154042_j22935125361178_1_alg».proof.Proof.Spec
import Idealize.ShloMosaic.Lib.Pipeline.Value
import Idealize.ShloMosaic.Lib.ValueIdx
import Idealize.ShloMosaic.Lib.ValueLayout

noncomputable section

namespace Cert.KernelIdeal.Combine3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's value at an entry -/

theorem hz : (![0, 0] : Fin 2 → Nat) = fun _ => 0 := funext fun a => by fin_cases a <;> rfl

/-- Entry (p, q) of what the body stores: the block's entry plus the row's entry of the same column.
    The casts to the same shape are the identity; the row is repeated down the block. -/
theorem pay_apply (xb : Vec Ideal S5000x128 .f32) (rb : Vec Ideal S1x128 .f32) (p : Fin 5000) (q : Fin 128) :
    k3_pay1 xb rb (ix2 p q) = xb (ix2 p q) + rb (ix2 (0 : Fin 1) q) := by
  unfold k3_pay1
  simp only [shapeCast_self]
  show xb (ix2 p q) + broadcastTo S5000x128 rb broadcasts_S1x128_S5000x128 (ix2 p q) = _
  rw [broadcastTo_1b_ab_apply]

/-! ## From blocks to the array -/

/-- The index maps over the ten grid points: the first input's window moves with the output window down the rows,
    point t at block row t; the row's window stays at its one block. -/
theorem idx_facts : ∀ t : Fin cfg3.N, win3_0.index t (0 : Fin 2) = win3_2.index t (0 : Fin 2)
    ∧ win3_0.index t (1 : Fin 2) = win3_2.index t (1 : Fin 2) ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block row 0 … 9 is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of `addBias` of the first input array and the bias. -/
theorem flushed_eq (c : Dev nD) (b : FVec Ideal S128 .f32)
    (hb : V c main_v108 = shapeCast S1x128 b shapeCasts_S128_S1x128) (t : Fin cfg3.N) :
    (dat3 V c).flushed 2 t
      = ((cfg3.win 2).blk t).view.read (Elt Ideal) (Cert.GCN.addBias (V c main_v107) b) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = Cert.GCN.addBias (V c main_v107) b (((cfg3.win 2).blk t).view.emb (ix2 p q))
  refine (pay_apply _ _ p q).trans ?_
  have hx : iblk3 V c 0 t (ix2 p q) = V c main_v107 (((cfg3.win 2).blk t).view.emb (ix2 p q)) := by
    show V c main_v107 (((cfg3.win 0).blk t).view.emb (ix2 p q)) = _
    refine congrArg (V c main_v107) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have hr : iblk3 V c 1 t (ix2 (0 : Fin 1) q)
      = b (ix1 (⟨((((cfg3.win 2).blk t).view.emb (ix2 p q)) 1).val, idx2_lt1 _⟩ : Fin 128)) := by
    show V c main_v108 (((cfg3.win 1).blk t).view.emb (ix2 (0 : Fin 1) q)) = _
    rw [hb]
    have hidx : ((cfg3.win 1).blk t).view.emb (ix2 (0 : Fin 1) q)
        = ix2 (0 : Fin 1) (⟨((((cfg3.win 2).blk t).view.emb (ix2 p q)) 1).val, idx2_lt1 _⟩ : Fin 128) := by
      refine funext fun a => Fin.ext ?_
      match a with
      | ⟨0, _⟩ => show win3_1.index t (0 : Fin 2) * 1 + 1 * 0 = 0; omega
      | ⟨1, _⟩ => show win3_1.index t (1 : Fin 2) * 128 + 1 * q.val = win3_2.index t (1 : Fin 2) * 128 + 1 * q.val; omega
    rw [hidx]
    exact shapeCast_a_1a_apply b shapeCasts_S128_S1x128 0 _
  rw [hx, hr]
  rfl

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v109).slice (win3_2.rect t)).set ↔ _
  rw [View.set_slice_whole, Rect.mem_set_unit]
  exact Iff.rfl

/-- The ten blocks tile the array: row r is in the block of point r / 5000. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: `addBias` of the first input array as the region finds it and the bias. -/
theorem final (c : Dev nD) (b : FVec Ideal S128 .f32)
    (hb : V c main_v108 = shapeCast S1x128 b shapeCasts_S128_S1x128) :
    (dat3 V c).arrAt 2 cfg3.N = Cert.GCN.addBias (V c main_v107) b :=
  (dat3 V c).arrAt_eq_of_cover 2 _ (fun t _ => flushed_eq V c b hb t) cover

end Cert.KernelIdeal.Combine3

end
-- ==== Proof.KernelValue.lean ====
/-
  What the kernel's result buffer holds at the return: the two-layer network of the launch memory's arguments.

  The contents of the long-lived buffers at the eight boundaries between the program's segments are folds from the
  launch memory. Reading the result's buffer at the last boundary and walking back:
  * the last region adds the second bias to the array the third stretch of host operations left;
  * that stretch is the neighbourhood aggregation of what the third region left, with the edge ends the first stretch
    cut out of the edge list (no later segment writes them), and the second bias laid out as a row;
  * the third region is the dense transform, by the second weight matrix, of what the second region left;
  * the second region adds the first bias to what the second stretch left and rectifies it;
  * the second stretch is the aggregation of what the first region left — the dense transform of the features by the
    first weight matrix.
  An argument array is written by no segment, so wherever it is read it is the launch memory's.
-/
import proofs.«154042_j22935125361178_1_alg».proof.Proof.Gen.KernelIdeal.Frame
import proofs.«154042_j22935125361178_1_alg».proof.Proof.Spec
import proofs.«154042_j22935125361178_1_alg».proof.Proof.Linear0
import proofs.«154042_j22935125361178_1_alg».proof.Proof.Combine1
import proofs.«154042_j22935125361178_1_alg».proof.Proof.Linear2
import proofs.«154042_j22935125361178_1_alg».proof.Proof.Combine3
import Idealize.ShloMosaic.Lib.StableHlo.Run

noncomputable section

namespace Cert.KernelIdeal.KernelValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch: the edge ends cut out of the edge list, the arguments untouched -/

theorem W1_src (c : Dev nD) : W1 m ρ c (Proc.devRef .tc main_v1) = Cert.GCN.edgeSrc (m ((c : Thread nD τ).loc main_arg1)) := by
  show StableHlo.after hostOps0 (W0 m ρ c) (Proc.devRef .tc main_v1) = _
  after_results; rfl
theorem W1_dst (c : Dev nD) : W1 m ρ c (Proc.devRef .tc main_v3) = Cert.GCN.edgeDst (m ((c : Thread nD τ).loc main_arg1)) := by
  show StableHlo.after hostOps0 (W0 m ρ c) (Proc.devRef .tc main_v3) = _
  after_results; rfl
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results

/-! ## After the first region: the dense transform of the features; everything else as it was -/

theorem W2_h (c : Dev nD) : W2 m ρ c (Proc.devRef .tc main_v4)
    = Cert.GCN.linear (m ((c : Thread nD τ).loc main_arg0)) (m ((c : Thread nD τ).loc main_arg2)) := by
  refine (W2_arr m ρ c 2).trans ((Cert.KernelIdeal.Linear0.final (V1 m ρ) c).trans ?_)
  show Cert.GCN.linear (W1 m ρ c (Proc.devRef .tc main_arg0)) (W1 m ρ c (Proc.devRef .tc main_arg2)) = _
  rw [W1_arg0, W1_arg2]
theorem W2_src (c : Dev nD) : W2 m ρ c (Proc.devRef .tc main_v1) = Cert.GCN.edgeSrc (m ((c : Thread nD τ).loc main_arg1)) :=
  (W2_of_ne m ρ c main_v1 (by decide)).trans (W1_src m ρ c)
theorem W2_dst (c : Dev nD) : W2 m ρ c (Proc.devRef .tc main_v3) = Cert.GCN.edgeDst (m ((c : Thread nD τ).loc main_arg1)) :=
  (W2_of_ne m ρ c main_v3 (by decide)).trans (W1_dst m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## After the second stretch: the aggregation of the transformed features, and the first bias as a row -/

theorem W3_pre (c : Dev nD) : W3 m ρ c (Proc.devRef .tc main_v54)
    = Cert.GCN.agg (F := Ideal) (W2 m ρ c (Proc.devRef .tc main_v4)) (W2 m ρ c (Proc.devRef .tc main_v1)) (W2 m ρ c (Proc.devRef .tc main_v3)) := by
  show StableHlo.after hostOps1 (W2 m ρ c) (Proc.devRef .tc main_v54) = _
  after_results_simp
  rfl
theorem W3_row (c : Dev nD) : W3 m ρ c (Proc.devRef .tc main_v55)
    = shapeCast S1x128 (W2 m ρ c (Proc.devRef .tc main_arg3)) shapeCasts_S128_S1x128 := by
  show StableHlo.after hostOps1 (W2 m ρ c) (Proc.devRef .tc main_v55) = _
  after_results_simp
  rfl
theorem W3_src (c : Dev nD) : W3 m ρ c (Proc.devRef .tc main_v1) = W2 m ρ c (Proc.devRef .tc main_v1) := by
  show StableHlo.after hostOps1 (W2 m ρ c) (Proc.devRef .tc main_v1) = _
  after_results_simp
theorem W3_dst (c : Dev nD) : W3 m ρ c (Proc.devRef .tc main_v3) = W2 m ρ c (Proc.devRef .tc main_v3) := by
  show StableHlo.after hostOps1 (W2 m ρ c) (Proc.devRef .tc main_v3) = _
  after_results_simp
theorem W3_arg4 (c : Dev nD) : W3 m ρ c (Proc.devRef .tc main_arg4) = W2 m ρ c (Proc.devRef .tc main_arg4) := by
  show StableHlo.after hostOps1 (W2 m ρ c) (Proc.devRef .tc main_arg4) = _
  after_results_simp
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp

/-! ## After the second region: bias and rectifier -/

theorem W4_h (c : Dev nD) : W4 m ρ c (Proc.devRef .tc main_v56)
    = Cert.GCN.addBiasRelu (W3 m ρ c (Proc.devRef .tc main_v54)) (m ((c : Thread nD τ).loc main_arg3)) := by
  refine (W4_arr m ρ c 2).trans ?_
  exact Cert.KernelIdeal.Combine1.final (V3 m ρ) c (m ((c : Thread nD τ).loc main_arg3))
    ((W3_row m ρ c).trans (by rw [W2_arg3]))
theorem W4_src (c : Dev nD) : W4 m ρ c (Proc.devRef .tc main_v1) = Cert.GCN.edgeSrc (m ((c : Thread nD τ).loc main_arg1)) :=
  (W4_of_ne m ρ c main_v1 (by decide)).trans ((W3_src m ρ c).trans (W2_src m ρ c))
theorem W4_dst (c : Dev nD) : W4 m ρ c (Proc.devRef .tc main_v3) = Cert.GCN.edgeDst (m ((c : Thread nD τ).loc main_arg1)) :=
  (W4_of_ne m ρ c main_v3 (by decide)).trans ((W3_dst m ρ c).trans (W2_dst m ρ c))
theorem W4_arg4 (c : Dev nD) : W4 m ρ c (Proc.devRef .tc main_arg4) = m ((c : Thread nD τ).loc main_arg4) :=
  (W4_of_ne m ρ c main_arg4 (by decide)).trans ((W3_arg4 m ρ c).trans (W2_arg4 m ρ c))
theorem W4_arg5 (c : Dev nD) : W4 m ρ c (Proc.devRef .tc main_arg5) = m ((c : Thread nD τ).loc main_arg5) :=
  (W4_of_ne m ρ c main_arg5 (by decide)).trans ((W3_arg5 m ρ c).trans (W2_arg5 m ρ c))

/-! ## After the third region: the second dense transform -/

theorem W5_h (c : Dev nD) : W5 m ρ c (Proc.devRef .tc main_v57)
    = Cert.GCN.linear (W4 m ρ c (Proc.devRef .tc main_v56)) (m ((c : Thread nD τ).loc main_arg4)) := by
  refine (W5_arr m ρ c 2).trans ((Cert.KernelIdeal.Linear2.final (V4 m ρ) c).trans ?_)
  show Cert.GCN.linear (W4 m ρ c (Proc.devRef .tc main_v56)) (W4 m ρ c (Proc.devRef .tc main_arg4)) = _
  rw [W4_arg4]
theorem W5_src (c : Dev nD) : W5 m ρ c (Proc.devRef .tc main_v1) = Cert.GCN.edgeSrc (m ((c : Thread nD τ).loc main_arg1)) :=
  (W5_of_ne m ρ c main_v1 (by decide)).trans (W4_src m ρ c)
theorem W5_dst (c : Dev nD) : W5 m ρ c (Proc.devRef .tc main_v3) = Cert.GCN.edgeDst (m ((c : Thread nD τ).loc main_arg1)) :=
  (W5_of_ne m ρ c main_v3 (by decide)).trans (W4_dst m ρ c)
theorem W5_arg5 (c : Dev nD) : W5 m ρ c (Proc.devRef .tc main_arg5) = m ((c : Thread nD τ).loc main_arg5) :=
  (W5_of_ne m ρ c main_arg5 (by decide)).trans (W4_arg5 m ρ c)

/-! ## After the third stretch: the second aggregation, and the second bias as a row -/

theorem W6_pre (c : Dev nD) : W6 m ρ c (Proc.devRef .tc main_v107)
    = Cert.GCN.agg (F := Ideal) (W5 m ρ c (Proc.devRef .tc main_v57)) (W5 m ρ c (Proc.devRef .tc main_v1)) (W5 m ρ c (Proc.devRef .tc main_v3)) := by
  show StableHlo.after hostOps3 (W5 m ρ c) (Proc.devRef .tc main_v107) = _
  after_results_simp
  rfl
theorem W6_row (c : Dev nD) : W6 m ρ c (Proc.devRef .tc main_v108)
    = shapeCast S1x128 (W5 m ρ c (Proc.devRef .tc main_arg5)) shapeCasts_S128_S1x128 := by
  show StableHlo.after hostOps3 (W5 m ρ c) (Proc.devRef .tc main_v108) = _
  after_results_simp
  rfl

/-! ## At the return -/

/-- The result buffer at the last boundary holds the two-layer network of the launch memory's arguments. -/
theorem W7_result (c : Dev nD) : W7 m ρ c (Proc.devRef .tc main_v109)
    = Cert.GCN.net (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (W7_arr m ρ c 2).trans ?_
  refine (Cert.KernelIdeal.Combine3.final (V6 m ρ) c (m ((c : Thread nD τ).loc main_arg5))
    ((W6_row m ρ c).trans (by rw [W5_arg5]))).trans ?_
  show Cert.GCN.addBias (W6 m ρ c (Proc.devRef .tc main_v107)) (m ((c : Thread nD τ).loc main_arg5)) = _
  rw [W6_pre, W5_h, W5_src, W5_dst, W4_h, W3_pre, W2_h, W2_src, W2_dst]
  rfl

end Cert.KernelIdeal.KernelValue

end
-- ==== Proof.RefValue.lean ====
/-
  The reference program computes the two-layer graph convolution of the specification.

  Its result is a composition of stages, each a function of the six argument arrays (node features, edge list,
  and the weight matrix and bias row of each layer). Stage by stage:
  * the contraction of a 50000 × 128 array with a 128 × 128 matrix over their shared axis is, entry by entry, the
    sum over the 128 shared coordinates, which is `linear`;
  * the stretch from the transformed features to the neighbourhood sum applies to them and to the two rows of the
    edge list the very operations `agg` is made of, in the same order, so it is `agg` with nothing to open;
  * a bias row made a 1 × 128 array and then repeated along the rows has `b c` at entry (r, c), so adding it is
    `addBias`; the maximum of that sum with the zero word repeated everywhere is `addBiasRelu`.
  Chaining the stages in the program's order gives `net`.
-/
import proofs.«154042_j22935125361178_1_alg».proof.Proof.Spec
import proofs.«154042_j22935125361178_1_alg».proof.Proof.Gen.ReferenceIdeal.Run
import proofs.«154042_j22935125361178_1_alg».proof.Proof.Gen.ReferenceIdeal.Read
import proofs.«154042_j22935125361178_1_alg».proof.Proof.Gen.KernelIdeal
import Idealize.ShloMosaic.Lib.ValueIdx

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read

/-! ## The reference's stages, one at a time

The reference program's result is read back by the generated module as a chain of stage values `val_main_vN`,
each a function of the argument arrays. The stages are identified with the specification's: the contraction with
`linear`, the gather/scatter stretch with `agg` (the same operations applied to the same values, so the two are
the same term), the two broadcasts of a bias row followed by the sum with `addBias`, and, after the first layer,
the maximum with the broadcast zero word with `addBiasRelu`. -/

/-- The dense transform. The contraction over the one shared axis, read at an index, is the sum over that axis'
    coordinate `k` of the left operand at (row, k) times the right operand at (k, column). -/
theorem dot_eq_linear (x : (⟨S50000x128, .f32⟩ : BufTy).Contents (Elt Ideal)) (W : (⟨S128x128, .f32⟩ : BufTy).Contents (Elt Ideal)) :
    val_main_v4 (F := Ideal) x W = Cert.GCN.linear x W := by
  funext i
  rw [val_main_v4_apply]
  refine Finset.sum_congr rfl fun k _ => ?_
  have el : lidx_main_v4 i k = ix2 (⟨(i 0).val, idx2_lt0 i⟩ : Fin 50000) k :=
    funext fun a => Fin.ext (by match a with | ⟨0, _⟩ => rfl | ⟨1, _⟩ => rfl)
  have er : ridx_main_v4 i k = ix2 k (⟨(i 1).val, idx2_lt1 i⟩ : Fin 128) :=
    funext fun a => Fin.ext (by match a with | ⟨0, _⟩ => rfl | ⟨1, _⟩ => rfl)
  rw [el, er]

/-- The bias row broadcast to the whole array, read at an index: entry (r, c) is `b c`. The row is first made a
    1 × 128 array, then repeated along the 50000 rows. -/
theorem biasRow_apply (b : (⟨S128, .f32⟩ : BufTy).Contents (Elt Ideal)) (i : S50000x128.Idx) :
    val_main_v56 (F := Ideal) b i = b (ix1 (⟨(i 1).val, idx2_lt1 i⟩ : Fin 128)) := by
  rw [val_main_v56_apply, val_main_v55_apply]
  exact congrArg b (funext fun a => Fin.ext (by match a with | ⟨0, _⟩ => rfl))

/-- Adding the broadcast bias row is `addBias`. -/
theorem add_biasRow (pre : (⟨S50000x128, .f32⟩ : BufTy).Contents (Elt Ideal)) (b : (⟨S128, .f32⟩ : BufTy).Contents (Elt Ideal)) :
    addf pre (val_main_v56 (F := Ideal) b) = Cert.GCN.addBias pre b := by
  funext i
  show pre i + val_main_v56 (F := Ideal) b i = pre i + b (ix1 (⟨(i 1).val, idx2_lt1 i⟩ : Fin 128))
  rw [biasRow_apply]

/-- The broadcast of the scalar zero word is that word at every index. -/
theorem zeroArr_apply (i : S50000x128.Idx) :
    val_main_call0_v0 (F := Ideal) i = Ideal.ofBits .f32 0x00000000#32 := by
  rw [val_main_call0_v0_apply, val_main_call0_cst_apply]
  rfl

/-- Adding the broadcast bias row and taking the maximum with the broadcast zero word is `addBiasRelu`. -/
theorem relu_add_biasRow (pre : (⟨S50000x128, .f32⟩ : BufTy).Contents (Elt Ideal)) (b : (⟨S128, .f32⟩ : BufTy).Contents (Elt Ideal)) :
    maximumf (addf pre (val_main_v56 (F := Ideal) b)) (val_main_call0_v0 (F := Ideal)) = Cert.GCN.addBiasRelu pre b := by
  funext i
  show max (pre i + val_main_v56 (F := Ideal) b i) (val_main_call0_v0 (F := Ideal) i)
      = max (pre i + b (ix1 (⟨(i 1).val, idx2_lt1 i⟩ : Fin 128))) (Ideal.ofBits .f32 0x00000000#32)
  rw [biasRow_apply, zeroArr_apply]

/-! ## The two layers -/

section Layers
variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- First layer, before the bias: the neighbourhood sum of the transformed features. The reference applies to the
    transformed features and the two rows of the edge list exactly the operations `agg` names. -/
theorem layer1_agg :
    val_main_v54 (F := Ideal) x0 x1 x2
      = Cert.GCN.agg (F := Ideal) (Cert.GCN.linear x0 x2) (Cert.GCN.edgeSrc x1) (Cert.GCN.edgeDst x1) := by
  rw [← dot_eq_linear]
  rfl

/-- First layer, whole: bias and rectifier. -/
theorem layer1 :
    val_main_v58 (F := Ideal) x0 x1 x2 x3
      = Cert.GCN.addBiasRelu (Cert.GCN.agg (F := Ideal) (Cert.GCN.linear x0 x2) (Cert.GCN.edgeSrc x1) (Cert.GCN.edgeDst x1)) x3 := by
  rw [← layer1_agg]
  exact relu_add_biasRow (val_main_v54 (F := Ideal) x0 x1 x2) x3

/-- Second layer's dense transform: the same contraction applied to the first layer's output. -/
theorem layer2_linear :
    val_main_v59 (F := Ideal) x0 x1 x2 x3 x4 = Cert.GCN.linear (val_main_v58 (F := Ideal) x0 x1 x2 x3) x4 :=
  dot_eq_linear (val_main_v58 (F := Ideal) x0 x1 x2 x3) x4

/-- Second layer, before the bias: the same neighbourhood sum, of the second transform. -/
theorem layer2_agg :
    val_main_v109 (F := Ideal) x0 x1 x2 x3 x4
      = Cert.GCN.agg (F := Ideal) (val_main_v59 (F := Ideal) x0 x1 x2 x3 x4) (Cert.GCN.edgeSrc x1) (Cert.GCN.edgeDst x1) := rfl

/-- The second bias row is broadcast the same way as the first. -/
theorem biasRow2 : val_main_v111 (F := Ideal) x5 = val_main_v56 (F := Ideal) x5 := rfl

/-- The reference's last stage is the network. -/
theorem val_eq_net :
    val_main_v112 (F := Ideal) x0 x1 x2 x3 x4 x5 = Cert.GCN.net x0 x1 x2 x3 x4 x5 := by
  have h : val_main_v112 (F := Ideal) x0 x1 x2 x3 x4 x5
      = Cert.GCN.addBias (val_main_v109 (F := Ideal) x0 x1 x2 x3 x4) x5 := by
    rw [← add_biasRow, ← biasRow2]
    rfl
  rw [h, layer2_agg, layer2_linear, layer1]
  rfl

end Layers

/-- The reference program's result is the two-layer network of its six arguments. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v112 (F := Ideal) m c
      = Cert.GCN.net (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) :=
  (val_main_v112_eq (F := Ideal) m c).trans (val_eq_net _ _ _ _ _ _)

end Cert.ReferenceIdeal.RefValue

end
-- ==== Proof.lean ====
/-
  Two layers of a graph convolution on 50000 nodes with 128 features and 800000 edges: the kernel's program against the
  reference, on the extended reals.

  Both programs compute, layer by layer, `addBias (agg (linear x W) src dst) b` — a dense transform, the
  symmetric-normalised neighbourhood sum with self loops, a bias — with a rectifier after the first layer
  (Proof/Spec.lean states the network `net`). They differ in two places only. The kernel makes the dense transform a
  pipelined matrix product over ten blocks of 5000 rows, the operands rounded to a shorter float format on the way in;
  the reference contracts the whole arrays on the host. On the extended reals the rounding is the identity and both are
  the sum over the 128 shared coordinates (Proof/Linear0.lean, Proof/Linear2.lean; Proof/RefValue.lean). And the kernel
  adds the bias, as one row repeated down each block, and rectifies in a pipelined region, where the reference
  broadcasts the row over the whole array and takes the maximum with a zero array (Proof/Combine1.lean,
  Proof/Combine3.lean). The neighbourhood sum is the same host operations in both programs, applied to equal values,
  and is never opened. No law of arithmetic beyond reading a finite sum at an index is used, so the finiteness of
  the inputs is not needed.

  The kernel's run: its program is seven segments, and the contents of every long-lived buffer are tracked from the
  launch to the return (Proof/KernelRun.lean); the result buffer's contents there, walked back through the segments,
  are `net` of the launch arguments (Proof/KernelValue.lean). The reference's run ends with its result at its
  operations' composed term of the arguments, which is `net` of them (Proof/RefValue.lean). Started from memories
  that agree on the arguments, the two results are equal, entry by entry.

  The three frame claims are the runs with the results dropped; the idealisation rewrote no operation of the kernel,
  so there is nothing to preserve.
-/
import proofs.«154042_j22935125361178_1_alg».proof.Defs
import proofs.«154042_j22935125361178_1_alg».proof.Proof.Gen.Kernel
import proofs.«154042_j22935125361178_1_alg».proof.Proof.Gen.Kernel.Frame
import proofs.«154042_j22935125361178_1_alg».proof.Proof.Gen.KernelIdeal
import proofs.«154042_j22935125361178_1_alg».proof.Proof.Gen.KernelIdeal.Frame
import proofs.«154042_j22935125361178_1_alg».proof.Proof.Gen.ReferenceIdeal
import proofs.«154042_j22935125361178_1_alg».proof.Proof.Gen.ReferenceIdeal.Run
import proofs.«154042_j22935125361178_1_alg».proof.Proof.Gen.Pre_finite_inputs
import proofs.«154042_j22935125361178_1_alg».proof.Proof.KernelRun
import proofs.«154042_j22935125361178_1_alg».proof.Proof.KernelValue
import proofs.«154042_j22935125361178_1_alg».proof.Proof.RefValue
import Idealize.ShloMosaic.Adequacy
import Idealize.ShloMosaic.Init

noncomputable section

namespace Cert.Proof

open Idealize.ShloMosaic Idealize.SL.Sem

/-- The kernel's program as printed, word level: it runs and leaves its arguments as they were. -/
theorem frame_kernel : Cert.frame_Kernel := fun m ρ _ => Cert.Kernel.Gen.frame m ρ

/-- The same of its reading on the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for its reading on the extended reals. -/
theorem preserves : Cert.preserves_Kernel_KernelIdeal := trivial

/-- From memories that agree on the six arguments both programs end with the two-layer network of those arguments
    in their result arrays. -/
theorem algebraic : Cert.algebraic_KernelIdeal_ReferenceIdeal := by
  intro m ρ m' ρ' _ hagree
  refine ⟨fun c => Cert.GCN.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.W7_result m ρ c), (h c).2⟩)
      (Cert.KernelIdeal.KernelRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
